-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x512x512 : Shape := ⟨3, ![256, 512, 512]⟩
abbrev S4x4x1 : Shape := ⟨3, ![4, 4, 1]⟩
abbrev S4x4 : Shape := ⟨2, ![4, 4]⟩
abbrev S10x16 : Shape := ⟨2, ![10, 16]⟩
abbrev S10 : Shape := ⟨1, ![10]⟩
abbrev S_ : Shape := ⟨0, ![]⟩

class Facts : Prop where
  bcast_S_S256x512x512 : S_.BroadcastsInDim S256x512x512 (![] : Fin 0 → Fin S256x512x512.rank)
  reducesTo_S256x512x512_S_d0_1_2 : S256x512x512.ReducesTo [0, 1, 2] S_
  h_S_ : 0 < S_.numel
  bcast_S_S4x4x1 : S_.BroadcastsInDim S4x4x1 (![] : Fin 0 → Fin S4x4x1.rank)
  reducesTo_S4x4x1_S_d0_1_2 : S4x4x1.ReducesTo [0, 1, 2] S_
  bcast_S_S4x4 : S_.BroadcastsInDim S4x4 (![] : Fin 0 → Fin S4x4.rank)
  reducesTo_S4x4_S_d0_1 : S4x4.ReducesTo [0, 1] S_
  bcast_S_S10x16 : S_.BroadcastsInDim S10x16 (![] : Fin 0 → Fin S10x16.rank)
  reducesTo_S10x16_S_d0_1 : S10x16.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg4 : FVec F S10x16 .f32) (main_arg5 : FVec F S10 .f32) (main_v13 : IVec S_ 1) (main_v16 : IVec S4x4 1) : IVec S_ 1 :=
  let main_c_5 : IVec S_ 1 := constantI S_ 1 1#1
  let main_v17 : IVec S_ 1 := (fun x v => Host.reduce IntOp.andi x v reducesTo_S4x4_S_d0_1 h_S_) main_v16 main_c_5
  let main_v18 : IVec S_ 1 := andi main_v13 main_v17
  let main_v19 : FVec F S10x16 .f32 := Host.absf main_arg4
  let main_cst_6 : FVec F S_ .f32 := constant S_ .f32 0x7F800000#32
  let main_v20 : FVec F S10x16 .f32 := broadcastInDim S10x16 ![] bcast_S_S10x16 main_cst_6
  let main_v21 : IVec S10x16 1 := cmpf .olt main_v19 main_v20
  let main_c_7 : IVec S_ 1 := constantI S_ 1 1#1
  let main_v22 : IVec S_ 1 := (fun x v => Host.reduce IntOp.andi x v reducesTo_S10x16_S_d0_1 h_S_) main_v21 main_c_7
  let main_v23 : IVec S_ 1 := andi main_v18 main_v22
  let main_v24 : FVec F S10 .f32 := Host.absf main_arg5
  let main_cst_8 : FVec F S_ .f32 := constant S_ .f32 0x7F800000#32
  let main_v25 : FVec F S10 .f32 := broadcastInDim S10 ![] bcast_S_S10 main_cst_8
  let main_v26 : IVec S10 1 := cmpf .olt main_v24 main_v25
  let main_c_9 : IVec S_ 1 := constantI S_ 1 1#1
  let main_v27 : IVec S_ 1 := (fun x v => Host.reduce IntOp.andi x v reducesTo_S10_S_d0 h_S_) main_v26 main_c_9
  let main_v28 : IVec S_ 1 := andi main_v23 main_v27
  main_v28

def fn {F : FTy → Type} [FloatOps F] (main_arg0 : FVec F S256x512x512 .f32) (main_arg1 : FVec F S4x4x1 .f32) (main_arg2 : FVec F S4x4 .f32) (main_arg3 : FVec F S4x4 .f32) (main_arg4 : FVec F S10x16 .f32) (main_arg5 : FVec F S10 .f32) : IVec S_ 1 :=
  let main_v0 : FVec F S256x512x512 .f32 := Host.absf main_arg0
  let main_cst : FVec F S_ .f32 := constant S_ .f32 0x7F800000#32
  let main_v1 : FVec F S256x512x512 .f32 := broadcastInDim S256x512x512 ![] bcast_S_S256x512x512 main_cst
  let main_v2 : IVec S256x512x512 1 := cmpf .olt main_v0 main_v1
  let main_c : IVec S_ 1 := constantI S_ 1 1#1
  let main_v3 : IVec S_ 1 := (fun x v => Host.reduce IntOp.andi x v reducesTo_S256x512x512_S_d0_1_2 h_S_) main_v2 main_c
  let main_v4 : FVec F S4x4x1 .f32 := Host.absf main_arg1
  let main_cst_0 : FVec F S_ .f32 := constant S_ .f32 0x7F800000#32
  let main_v5 : FVec F S4x4x1 .f32 := broadcastInDim S4x4x1 ![] bcast_S_S4x4x1 main_cst_0
  let main_v6 : IVec S4x4x1 1 := cmpf .olt main_v4 main_v5
  let main_c_1 : IVec S_ 1 := constantI S_ 1 1#1
  let main_v7 : IVec S_ 1 := (fun x v => Host.reduce IntOp.andi x v reducesTo_S4x4x1_S_d0_1_2 h_S_) main_v6 main_c_1
  let main_v8 : IVec S_ 1 := andi main_v3 main_v7
  let main_v9 : FVec F S4x4 .f32 := Host.absf main_arg2
  let main_cst_2 : FVec F S_ .f32 := constant S_ .f32 0x7F800000#32
  let main_v10 : FVec F S4x4 .f32 := broadcastInDim S4x4 ![] bcast_S_S4x4 main_cst_2
  let main_v11 : IVec S4x4 1 := cmpf .olt main_v9 main_v10
  let main_c_3 : IVec S_ 1 := constantI S_ 1 1#1
  let main_v12 : IVec S_ 1 := (fun x v => Host.reduce IntOp.andi x v reducesTo_S4x4_S_d0_1 h_S_) main_v11 main_c_3
  let main_v13 : IVec S_ 1 := andi main_v8 main_v12
  let main_v14 : FVec F S4x4 .f32 := Host.absf main_arg3
  let main_cst_4 : FVec F S_ .f32 := constant S_ .f32 0x7F800000#32
  let main_v15 : FVec F S4x4 .f32 := broadcastInDim S4x4 ![] bcast_S_S4x4 main_cst_4
  let main_v16 : IVec S4x4 1 := cmpf .olt main_v14 main_v15
  fn_part1 (F := F) main_arg4 main_arg5 main_v13 main_v16
-- ==== Kernel.lean ====
abbrev S256x512x512 : Shape := ⟨3, ![256, 512, 512]⟩
abbrev S4x4x1 : Shape := ⟨3, ![4, 4, 1]⟩
abbrev S4x4 : Shape := ⟨2, ![4, 4]⟩
abbrev S10x16 : Shape := ⟨2, ![10, 16]⟩
abbrev S10 : Shape := ⟨1, ![10]⟩
abbrev S256x4 : Shape := ⟨2, ![256, 4]⟩
abbrev S8x512x512 : Shape := ⟨3, ![8, 512, 512]⟩
abbrev S8x4 : Shape := ⟨2, ![8, 4]⟩
abbrev S8x256x256 : Shape := ⟨3, ![8, 256, 256]⟩
abbrev S8x256 : Shape := ⟨2, ![8, 256]⟩
abbrev S8 : Shape := ⟨1, ![8]⟩
abbrev S8x1 : Shape := ⟨2, ![8, 1]⟩
abbrev S_ : Shape := ⟨0, ![]⟩
abbrev S256x4x1 : Shape := ⟨3, ![256, 4, 1]⟩
abbrev S1x4x4 : Shape := ⟨3, ![1, 4, 4]⟩
abbrev S256x4x4 : Shape := ⟨3, ![256, 4, 4]⟩
abbrev S256x16 : Shape := ⟨2, ![256, 16]⟩
abbrev S16x10 : Shape := ⟨2, ![16, 10]⟩
abbrev S256x10 : Shape := ⟨2, ![256, 10]⟩
abbrev S1x10 : Shape := ⟨2, ![1, 10]⟩

abbrev nBuf : Space → Nat
  | .hbm => 28
  | .vmem => 4
  | .smem => 0
  | _ => 0

abbrev bufTy : (tb : Table) → Fin (tcTables nBuf tb) → BufTy
  | .hbm, ⟨0, _⟩ => ⟨S256x512x512, .f32⟩
  | .hbm, ⟨1, _⟩ => ⟨S4x4x1, .f32⟩
  | .hbm, ⟨2, _⟩ => ⟨S4x4, .f32⟩
  | .hbm, ⟨3, _⟩ => ⟨S4x4, .f32⟩
  | .hbm, ⟨4, _⟩ => ⟨S10x16, .f32⟩
  | .hbm, ⟨5, _⟩ => ⟨S10, .f32⟩
  | .hbm, ⟨6, _⟩ => ⟨S256x4, .f32⟩
  | .hbm, ⟨7, _⟩ => ⟨S4x4, .f32⟩
  | .hbm, ⟨8, _⟩ => ⟨S4x4x1, .f32⟩
  | .hbm, ⟨9, _⟩ => ⟨S_, .f32⟩
  | .hbm, ⟨10, _⟩ => ⟨S4x4, .f32⟩
  | .hbm, ⟨11, _⟩ => ⟨S4x4, .f32⟩
  | .hbm, ⟨12, _⟩ => ⟨S4x4, .f32⟩
  | .hbm, ⟨13, _⟩ => ⟨S4x4, .f32⟩
  | .hbm, ⟨14, _⟩ => ⟨S256x4x1, .f32⟩
  | .hbm, ⟨15, _⟩ => ⟨S1x4x4, .f32⟩
  | .hbm, ⟨16, _⟩ => ⟨S256x4x4, .f32⟩
  | .hbm, ⟨17, _⟩ => ⟨S256x4x4, .f32⟩
  | .hbm, ⟨18, _⟩ => ⟨S256x4x4, .f32⟩
  | .hbm, ⟨19, _⟩ => ⟨S1x4x4, .f32⟩
  | .hbm, ⟨20, _⟩ => ⟨S256x4x4, .f32⟩
  | .hbm, ⟨21, _⟩ => ⟨S256x4x4, .f32⟩
  | .hbm, ⟨22, _⟩ => ⟨S256x16, .f32⟩
  | .hbm, ⟨23, _⟩ => ⟨S16x10, .f32⟩
  | .hbm, ⟨24, _⟩ => ⟨S256x10, .f32⟩
  | .hbm, ⟨25, _⟩ => ⟨S1x10, .f32⟩
  | .hbm, ⟨26, _⟩ => ⟨S256x10, .f32⟩
  | .hbm, ⟨27, _⟩ => ⟨S256x10, .f32⟩
  | .local _ .vmem, ⟨0, _⟩ => ⟨S8x512x512, .f32⟩
  | .local _ .vmem, ⟨1, _⟩ => ⟨S8x512x512, .f32⟩
  | .local _ .vmem, ⟨2, _⟩ => ⟨S8x4, .f32⟩
  | .local _ .vmem, ⟨3, _⟩ => ⟨S8x4, .f32⟩
  | _, _ => ⟨S256x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_v0 : Ref sig .tc := ⟨.hbm, 8, rfl⟩
abbrev main_call0_cst : Ref sig .tc := ⟨.hbm, 9, rfl⟩
abbrev main_call0_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S8x512x512_S8x256x256_0_0_0 : ∀ a, (![0, 0, 0] : Fin 3 → Nat) a + S8x256x256.size a ≤ S8x512x512.size a
  h_S8x256x256 : 0 < S8x256x256.numel
  reduces_S8x256x256_S8x256 : S8x256x256.Reduces [2] S8x256
  reduces_S8x256_S8 : S8x256.Reduces [1] S8
  inb_S8x512x512_S8x256x256_0_256_0 : ∀ a, (![0, 256, 0] : Fin 3 → Nat) a + S8x256x256.size a ≤ S8x512x512.size a
  inb_S8x512x512_S8x256x256_0_256_256 : ∀ a, (![0, 256, 256] : Fin 3 → Nat) a + S8x256x256.size a ≤ S8x512x512.size a
  inb_S8x512x512_S8x256x256_0_0_256 : ∀ a, (![0, 0, 256] : Fin 3 → Nat) a + S8x256x256.size a ≤ S8x512x512.size a
  shapeCasts_S8_S8x1 : S8.ShapeCasts S8x1
  concatenates_S8x1_S8x1_S8x1_S8x1_S8x4_d1 : Shape.Concatenates [S8x1, S8x1, S8x1, S8x1] S8x4 1
  inb_S8x4_S8x4_0_0 : ∀ a, (![0, 0] : Fin 2 → Nat) a + S8x4.size a ≤ S8x4.size a
  h_S8x4 : 0 < S8x4.numel
  shapeCasts_S4x4x1_S4x4 : S4x4x1.ShapeCasts S4x4
  reducesTo_S4x4x1_S4x4_d2 : S4x4x1.ReducesTo [2] S4x4
  h_S_ : 0 < S_.numel
  bcast_S256x4_S256x4x1_0_1 : S256x4.BroadcastsInDim S256x4x1 (![0, 1] : Fin 2 → Fin S256x4x1.rank)
  bcast_S4x4_S1x4x4_1_2 : S4x4.BroadcastsInDim S1x4x4 (![1, 2] : Fin 2 → Fin S1x4x4.rank)
  bcast_S256x4x1_S256x4x4_0_1_2 : S256x4x1.BroadcastsInDim S256x4x4 (![0, 1, 2] : Fin 3 → Fin S256x4x4.rank)
  bcast_S1x4x4_S256x4x4_0_1_2 : S1x4x4.BroadcastsInDim S256x4x4 (![0, 1, 2] : Fin 3 → Fin S256x4x4.rank)
  shapeCasts_S256x4x4_S256x16 : S256x4x4.ShapeCasts S256x16
  transposes_S10x16_S16x10_1_0 : S10x16.Transposes [1, 0] S16x10
  bcast_S10_S1x10_1 : S10.BroadcastsInDim S1x10 (![1] : Fin 1 → Fin S1x10.rank)
  bcast_S1x10_S256x10_0_1 : S1x10.BroadcastsInDim S256x10 (![0, 1] : Fin 2 → Fin S256x10.rank)
  dot_S256x16_S16x10_S256x10_1_0_0_1_n_n_wf : DotDims.WF S256x16 S16x10 S256x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512x512.size a ≤ S256x512x512.size a
  hwx0_0 : ∀ i : grid0.Coords, EltTy.bits .f32 = 32 ∨ (Rect.block (s := S256x512x512) S8x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x4.size a ≤ S256x4.size a
  hwx0_1 : ∀ i : grid0.Coords, EltTy.bits .f32 = 32 ∨ (Rect.block (s := S256x4) S8x4.size (cc0_transform_1 i) (hinb0_1 i)).WholeWords (EltTy.packing .f32)

variable [Facts₀]

def dot_S256x16_S16x10_S256x10_1_0_0_1_n_n : DotDims S256x16 S16x10 S256x10 where
  lhsContracting := [1]
  rhsContracting := [0]
  lhsNonContracting := [0]
  rhsNonContracting := [1]
  lhsBatch := []
  rhsBatch := []
  wf := dot_S256x16_S16x10_S256x10_1_0_0_1_n_n_wf

abbrev win0_0 : Pipeline.Window sig grid0 :=
  Pipeline.Window.ofSpec (Memref.whole main_arg0) S8x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x4.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S256x512x512 : Shape := ⟨3, ![256, 512, 512]⟩
abbrev S4x4x1 : Shape := ⟨3, ![4, 4, 1]⟩
abbrev S4x4 : Shape := ⟨2, ![4, 4]⟩
abbrev S10x16 : Shape := ⟨2, ![10, 16]⟩
abbrev S10 : Shape := ⟨1, ![10]⟩
abbrev S256x256x256 : Shape := ⟨3, ![256, 256, 256]⟩
abbrev S_ : Shape := ⟨0, ![]⟩
abbrev S256 : Shape := ⟨1, ![256]⟩
abbrev S256x1 : Shape := ⟨2, ![256, 1]⟩
abbrev S256x4 : Shape := ⟨2, ![256, 4]⟩
abbrev S256x4x1 : Shape := ⟨3, ![256, 4, 1]⟩
abbrev S1x4x4 : Shape := ⟨3, ![1, 4, 4]⟩
abbrev S256x4x4 : Shape := ⟨3, ![256, 4, 4]⟩
abbrev S256x16 : Shape := ⟨2, ![256, 16]⟩
abbrev S16x10 : Shape := ⟨2, ![16, 10]⟩
abbrev S256x10 : Shape := ⟨2, ![256, 10]⟩
abbrev S1x10 : Shape := ⟨2, ![1, 10]⟩

abbrev nBuf : Space → Nat
  | .hbm => 44
  | .vmem => 0
  | .smem => 0
  | _ => 0

abbrev bufTy : (tb : Table) → Fin (tcTables nBuf tb) → BufTy
  | .hbm, ⟨0, _⟩ => ⟨S256x512x512, .f32⟩
  | .hbm, ⟨1, _⟩ => ⟨S4x4x1, .f32⟩
  | .hbm, ⟨2, _⟩ => ⟨S4x4, .f32⟩
  | .hbm, ⟨3, _⟩ => ⟨S4x4, .f32⟩
  | .hbm, ⟨4, _⟩ => ⟨S10x16, .f32⟩
  | .hbm, ⟨5, _⟩ => ⟨S10, .f32⟩
  | .hbm, ⟨6, _⟩ => ⟨S256x256x256, .f32⟩
  | .hbm, ⟨7, _⟩ => ⟨S_, .f32⟩
  | .hbm, ⟨8, _⟩ => ⟨S256, .f32⟩
  | .hbm, ⟨9, _⟩ => ⟨S256x256x256, .f32⟩
  | .hbm, ⟨10, _⟩ => ⟨S_, .f32⟩
  | .hbm, ⟨11, _⟩ => ⟨S256, .f32⟩
  | .hbm, ⟨12, _⟩ => ⟨S256x256x256, .f32⟩
  | .hbm, ⟨13, _⟩ => ⟨S_, .f32⟩
  | .hbm, ⟨14, _⟩ => ⟨S256, .f32⟩
  | .hbm, ⟨15, _⟩ => ⟨S256x256x256, .f32⟩
  | .hbm, ⟨16, _⟩ => ⟨S_, .f32⟩
  | .hbm, ⟨17, _⟩ => ⟨S256, .f32⟩
  | .hbm, ⟨18, _⟩ => ⟨S256x1, .f32⟩
  | .hbm, ⟨19, _⟩ => ⟨S256x1, .f32⟩
  | .hbm, ⟨20, _⟩ => ⟨S256x1, .f32⟩
  | .hbm, ⟨21, _⟩ => ⟨S256x1, .f32⟩
  | .hbm, ⟨22, _⟩ => ⟨S256x4, .f32⟩
  | .hbm, ⟨23, _⟩ => ⟨S4x4, .f32⟩
  | .hbm, ⟨24, _⟩ => ⟨S4x4x1, .f32⟩
  | .hbm, ⟨25, _⟩ => ⟨S_, .f32⟩
  | .hbm, ⟨26, _⟩ => ⟨S4x4, .f32⟩
  | .hbm, ⟨27, _⟩ => ⟨S4x4, .f32⟩
  | .hbm, ⟨28, _⟩ => ⟨S4x4, .f32⟩
  | .hbm, ⟨29, _⟩ => ⟨S4x4, .f32⟩
  | .hbm, ⟨30, _⟩ => ⟨S256x4x1, .f32⟩
  | .hbm, ⟨31, _⟩ => ⟨S1x4x4, .f32⟩
  | .hbm, ⟨32, _⟩ => ⟨S256x4x4, .f32⟩
  | .hbm, ⟨33, _⟩ => ⟨S256x4x4, .f32⟩
  | .hbm, ⟨34, _⟩ => ⟨S256x4x4, .f32⟩
  | .hbm, ⟨35, _⟩ => ⟨S1x4x4, .f32⟩
  | .hbm, ⟨36, _⟩ => ⟨S256x4x4, .f32⟩
  | .hbm, ⟨37, _⟩ => ⟨S256x4x4, .f32⟩
  | .hbm, ⟨38, _⟩ => ⟨S256x16, .f32⟩
  | .hbm, ⟨39, _⟩ => ⟨S16x10, .f32⟩
  | .hbm, ⟨40, _⟩ => ⟨S256x10, .f32⟩
  | .hbm, ⟨41, _⟩ => ⟨S1x10, .f32⟩
  | .hbm, ⟨42, _⟩ => ⟨S256x10, .f32⟩
  | .hbm, ⟨43, _⟩ => ⟨S256x10, .f32⟩
  | _, _ => ⟨S256x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_call0_v0 : Ref sig .tc := ⟨.hbm, 24, rfl⟩
abbrev main_call0_cst : Ref sig .tc := ⟨.hbm, 25, rfl⟩
abbrev main_call0_v1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]

class Facts₀ : Prop where
  slices_S256x512x512_S256x256x256_0_0_0 : S256x512x512.Slices ![0, 0, 0] S256x256x256
  reducesTo_S256x256x256_S256_d1_2 : S256x256x256.ReducesTo [1, 2] S256
  h_S_ : 0 < S_.numel
  slices_S256x512x512_S256x256x256_0_256_0 : S256x512x512.Slices ![0, 256, 0] S256x256x256
  slices_S256x512x512_S256x256x256_0_256_256 : S256x512x512.Slices ![0, 256, 256] S256x256x256
  slices_S256x512x512_S256x256x256_0_0_256 : S256x512x512.Slices ![0, 0, 256] S256x256x256
  bcast_S256_S256x1_0 : S256.BroadcastsInDim S256x1 (![0] : Fin 1 → Fin S256x1.rank)
  concatenates_S256x1_S256x1_S256x1_S256x1_S256x4_d1 : Shape.Concatenates [S256x1, S256x1, S256x1, S256x1] S256x4 1
  shapeCasts_S4x4x1_S4x4 : S4x4x1.ShapeCasts S4x4
  reducesTo_S4x4x1_S4x4_d2 : S4x4x1.ReducesTo [2] S4x4
  bcast_S256x4_S256x4x1_0_1 : S256x4.BroadcastsInDim S256x4x1 (![0, 1] : Fin 2 → Fin S256x4x1.rank)
  bcast_S4x4_S1x4x4_1_2 : S4x4.BroadcastsInDim S1x4x4 (![1, 2] : Fin 2 → Fin S1x4x4.rank)
  bcast_S256x4x1_S256x4x4_0_1_2 : S256x4x1.BroadcastsInDim S256x4x4 (![0, 1, 2] : Fin 3 → Fin S256x4x4.rank)
  bcast_S1x4x4_S256x4x4_0_1_2 : S1x4x4.BroadcastsInDim S256x4x4 (![0, 1, 2] : Fin 3 → Fin S256x4x4.rank)
  shapeCasts_S256x4x4_S256x16 : S256x4x4.ShapeCasts S256x16
  transposes_S10x16_S16x10_1_0 : S10x16.Transposes [1, 0] S16x10
  bcast_S10_S1x10_1 : S10.BroadcastsInDim S1x10 (![1] : Fin 1 → Fin S1x10.rank)
  bcast_S1x10_S256x10_0_1 : S1x10.BroadcastsInDim S256x10 (![0, 1] : Fin 2 → Fin S256x10.rank)
  dot_S256x16_S16x10_S256x10_1_0_0_1_n_n_wf : DotDims.WF S256x16 S16x10 S256x10 [1] [0] [0] [1] [] []

variable [Facts₀]

def dot_S256x16_S16x10_S256x10_1_0_0_1_n_n : DotDims S256x16 S16x10 S256x10 where
  lhsContracting := [1]
  rhsContracting := [0]
  lhsNonContracting := [0]
  rhsNonContracting := [1]
  lhsBatch := []
  rhsBatch := []
  wf := dot_S256x16_S16x10_S256x10_1_0_0_1_n_n_wf

class Facts : Prop extends Facts₀ where

variable [Facts]
-- ==== Proof.LibTrailingSums.lean ====
/-
  Sums over the trailing axes of a small-rank array, read by coordinates at the exact (extended-real) values, on both
  sides of a kernel/host comparison, and the layout steps that put per-row scalars side by side as columns.

  * A kernel's lane sum of `[a, b, c]` over its last axis, read at `(p, r)`, is `∑ k, x (p, r, k)`; of `[a, b]` over its
    last axis, read at `p`, is `∑ r, x (p, r)`. Composed, they give the iterated sum `∑ r, ∑ k, x (p, r, k)`.
  * The host's single reduction of `[a, b, c]` over BOTH trailing axes, read at `p`, is the initial value plus the same
    iterated sum: the indices that drop to `p` are exactly the triples `(p, r, k)`.
  * A vector `[a]` recast as a column `[a, 1]` reads its entry `p` at `(p, 0)`; four columns `[a, 1]` joined along the
    second axis into `[a, 4]` read column `q` at `(p, q)`.
-/
import Idealize.ShloMosaic.PureOps.Ideal.Laws
import Idealize.ShloMosaic.Lib.ValueIdx
import Idealize.ShloMosaic.Lib.Pipeline.Value
import Idealize.ShloMosaic.Lib.IdealHost

noncomputable section

namespace Idealize.ShloMosaic.TrailingSums

open Idealize.ShloMosaic Idealize.ShloMosaic.ValueIdx

variable {φ : FTy}

/-! ## The kernel's lane sums -/

/-- Putting coordinate `k` back on the last axis of `(p, r)` gives `(p, r, k)`. -/
theorem lift_last3 {a b c : Nat} (h : (⟨3, ![a, b, c]⟩ : Shape).Reduces [2] ⟨2, ![a, b]⟩) (p : Fin a) (r : Fin b) (k : Fin c) :
    h.lift (ix2 p r) k = ix3 p r k := by
  funext d; apply Fin.ext
  match d with
  | ⟨0, _⟩ => rfl
  | ⟨1, _⟩ => rfl
  | ⟨2, _⟩ => rfl

/-- Putting coordinate `r` back on the last axis of `p` gives `(p, r)`. -/
theorem lift_last2 {a b : Nat} (h : (⟨2, ![a, b]⟩ : Shape).Reduces [1] ⟨1, ![a]⟩) (p : Fin a) (r : Fin b) :
    h.lift (ix1 p) r = ix2 p r := by
  funext d; apply Fin.ext
  match d with
  | ⟨0, _⟩ => rfl
  | ⟨1, _⟩ => rfl

/-- A lane sum of `[a, b, c]` over the last axis from the zero accumulator, at `(p, r)`: the sum of row `(p, r)`. -/
theorem sum_last3 {a b c : Nat} (x : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (r : Fin b) :
    multiReduction (F := Ideal) .add [2] ⟨2, ![a, b]⟩ x acc h hφ hacc (ix2 p r) = ∑ k : Fin c, x (ix3 p r k) :=
  (Ideal.multiReduction_add_single x acc h hφ hacc (ix2 p r)).trans
    (Finset.sum_congr rfl fun k _ => congrArg x (lift_last3 h p r k))

/-- A lane sum of `[a, b]` over the last axis from the zero accumulator, at `p`: the sum of row `p`. -/
theorem sum_last2 {a b : Nat} (x : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction (F := Ideal) .add [1] ⟨1, ![a]⟩ x acc h hφ hacc (ix1 p) = ∑ r : Fin b, x (ix2 p r) :=
  (Ideal.multiReduction_add_single x acc h hφ hacc (ix1 p)).trans
    (Finset.sum_congr rfl fun r _ => congrArg x (lift_last2 h p r))

/-! ## The host's sum over both trailing axes -/

/-- Dropping the two trailing coordinates of `(p, r, k)` leaves `p`. -/
theorem drop_trailing2 {a b c : Nat} (h : (⟨3, ![a, b, c]⟩ : Shape).ReducesTo [1, 2] ⟨1, ![a]⟩)
    (i : (⟨3, ![a, b, c]⟩ : Shape).Idx) : ((h.drop i) 0).val = (i 0).val :=
  rfl

/-- The host's reduction of `[a, b, c]` over axes 1 and 2, read at `p`: the initial value plus `∑ r, ∑ k, x (p, r, k)`.
    The indices that drop to `p` correspond one to one to the pairs `(r, k)`. -/
theorem hostSum_trailing2 {a b c : Nat} (h : (⟨3, ![a, b, c]⟩ : Shape).ReducesTo [1, 2] ⟨1, ![a]⟩)
    (x : (⟨3, ![a, b, c]⟩ : Shape).Idx → EReal) (init : EReal) (p : Fin a) :
    Ideal.hostReduceAdd h x init (ix1 p) = init + ∑ r : Fin b, ∑ k : Fin c, x (ix3 p r k) := by
  unfold Ideal.hostReduceAdd
  congr 1
  rw [← Fintype.sum_prod_type' (f := fun (r : Fin b) (k : Fin c) => x (ix3 p r k))]
  have h0 : ∀ i : (⟨3, ![a, b, c]⟩ : Shape).Idx, h.drop i = ix1 p → ix3 p (i 1) (i 2) = i := by
    intro i hi
    have e : (i 0).val = p.val := (drop_trailing2 h i).symm.trans (congrArg (fun j => (j 0).val) hi)
    funext d; apply Fin.ext
    match d with
    | ⟨0, _⟩ => exact e.symm
    | ⟨1, _⟩ => rfl
    | ⟨2, _⟩ => rfl
  refine Finset.sum_nbij' (fun i => ((i 1, i 2) : Fin b × Fin c)) (fun rk => ix3 p rk.1 rk.2) ?_ ?_ ?_ ?_ ?_
  · intro i _; exact Finset.mem_univ _
  · intro rk _
    refine Finset.mem_filter.2 ⟨Finset.mem_univ _, ?_⟩
    funext d; apply Fin.ext
    match d with
    | ⟨0, _⟩ => exact drop_trailing2 h (ix3 p rk.1 rk.2)
  · intro i hi; exact h0 i (Finset.mem_filter.1 hi).2
  · intro rk _; rfl
  · intro i hi; exact congrArg x (h0 i (Finset.mem_filter.1 hi).2).symm

/-! ## Scalars per row laid side by side -/

/-- A vector `[a]` recast as a column `[a, 1]`, read at `(p, 0)`: entry `p`. -/
theorem col_of_vec {α : Type} {a : Nat} (v : (⟨1, ![a]⟩ : Shape).Idx → α) (h : (⟨1, ![a]⟩ : Shape).ShapeCasts ⟨2, ![a, 1]⟩)
    (p : Fin a) (z : Fin 1) : shapeCast ⟨2, ![a, 1]⟩ v h (ix2 p z) = v (ix1 p) :=
  shapeCast_apply v h (ix2 p z) (ix1 p) (by
    rw [Shape.rowMajor_val_one, Shape.rowMajor_val_two]
    show p.val = p.val * 1 + z.val
    have := z.isLt; omega)

/-- Four columns `[a, 1]` joined along the second axis into `[a, 4]`, read at `(p, q)`: column `q` at `(p, 0)`. -/
theorem cols4 {α : Type} {a : Nat} (f : Fin 4 → ((⟨2, ![a, 1]⟩ : Shape).Idx → α))
    (h : Shape.Concatenates (([⟨⟨2, ![a, 1]⟩, f 0⟩, ⟨⟨2, ![a, 1]⟩, f 1⟩, ⟨⟨2, ![a, 1]⟩, f 2⟩, ⟨⟨2, ![a, 1]⟩, f 3⟩] :
      List ((s : Shape) × (s.Idx → α))).map (·.1)) ⟨2, ![a, 4]⟩ 1) (p : Fin a) (q : Fin 4) :
    concatenate ⟨2, ![a, 4]⟩ 1 [⟨⟨2, ![a, 1]⟩, f 0⟩, ⟨⟨2, ![a, 1]⟩, f 1⟩, ⟨⟨2, ![a, 1]⟩, f 2⟩, ⟨⟨2, ![a, 1]⟩, f 3⟩] h (ix2 p q)
      = f q (ix2 p 0) :=
  concatenate_ofFn_unit_apply (t := ⟨2, ![a, 4]⟩) (s₁ := ⟨2, ![a, 1]⟩) 1 f h rfl rfl (ix2 p q) q rfl (ix2 p 0)
    (fun b hb => by
      match b with
      | ⟨0, _⟩ => rfl
      | ⟨1, _⟩ => exact absurd rfl hb)

end Idealize.ShloMosaic.TrailingSums

end
-- ==== Proof.QuadrantSpec.lean ====
/-
  The four quadrant sums of a batch of square images, as one function of the input.

  The input is `x : [256, 512, 512]`: 256 images of side 512. Each image is cut into four quadrants of side 256, taken in the
  order top-left, bottom-left, bottom-right, top-right; quadrant `q` starts at row `rowOff q` and column `colOff q`. The
  result `agg x : [256, 4]` holds at `(n, q)` the sum of all entries of quadrant `q` of image `n`, written as the iterated sum
  over the quadrant's rows and then its columns. Values are extended reals, where addition is commutative and associative, so
  every way of grouping this finite sum gives the same number; no finiteness of the entries is used anywhere.
-/
import Idealize.ShloMosaic.PureOps.Ideal
import Idealize.ShloMosaic.Lib.ValueIdx

noncomputable section

namespace Cert.Quadrants

open Idealize.ShloMosaic Idealize.ShloMosaic.ValueIdx

/-- First row of quadrant `q` (top-left, bottom-left, bottom-right, top-right). -/
def rowOff : Fin 4 → Fin 257 := ![0, 256, 256, 0]
/-- First column of quadrant `q`. -/
def colOff : Fin 4 → Fin 257 := ![0, 0, 256, 256]

/-- Row `r0 + r` of an image of side 512, for a quadrant's first row `r0 ≤ 256` and a row `r < 256` inside it. -/
def shift (r0 : Fin 257) (r : Fin 256) : Fin 512 := ⟨r0.val + r.val, by have := r0.isLt; have := r.isLt; omega⟩

/-- The sum of the 256 × 256 entries of image `n` that start at row `r0` and column `c0`. -/
def blockSum (x : (⟨3, ![256, 512, 512]⟩ : Shape).Idx → EReal) (n : Fin 256) (r0 c0 : Fin 257) : EReal :=
  ∑ r : Fin 256, ∑ c : Fin 256, x (ix3 n (shift r0 r) (shift c0 c))

/-- The quadrant sums: at `(n, q)` the sum of quadrant `q` of image `n`. -/
def agg (x : (⟨3, ![256, 512, 512]⟩ : Shape).Idx → EReal) : (⟨2, ![256, 4]⟩ : Shape).Idx → EReal :=
  fun j => blockSum x (j 0) (rowOff (j 1)) (colOff (j 1))

theorem agg_apply (x : (⟨3, ![256, 512, 512]⟩ : Shape).Idx → EReal) (n : Fin 256) (q : Fin 4) :
    agg x (ix2 n q) = blockSum x n (rowOff q) (colOff q) := rfl

end Cert.Quadrants

end
-- ==== Proof.KernelBlock.lean ====
/-
  What one grid step of the kernel computes from its staged block.

  A grid step holds a block `x0 : [8, 512, 512]` (eight consecutive images) and writes an `[8, 4]` block. The body loads the
  four 256 × 256 quadrants of the eight images, sums each over its columns and then over its rows, recasts the four
  resulting vectors `[8]` as columns `[8, 1]` and joins them side by side. So the entry `(p, q)` of the written block is the
  iterated sum over rows and columns of quadrant `q` of image `p` of the block (`block_apply`).
-/
import proofs.«134007_j1443109012173_1_alg».proof.Proof.Gen.KernelIdeal.Frame
import proofs.«134007_j1443109012173_1_alg».proof.Proof.LibTrailingSums
import proofs.«134007_j1443109012173_1_alg».proof.Proof.QuadrantSpec

noncomputable section

namespace Cert.KernelIdeal.Block

open Idealize.ShloMosaic Idealize.ShloMosaic.ValueIdx Idealize.ShloMosaic.TrailingSums
open Cert.KernelIdeal Cert.KernelIdeal.Gen Cert.Quadrants

/-- One column of the written block: a quadrant's entries summed over columns, then over rows, as a column `[8, 1]`. -/
def colSum (v : FVec Ideal S8x256x256 .f32) : FVec Ideal S8x1 .f32 :=
  shapeCast S8x1 (multiReduction (F := Ideal) .add [1] S8
    (multiReduction (F := Ideal) .add [2] S8x256 v 0x00000000#32 reduces_S8x256x256_S8x256 (.inl rfl) rfl)
    0x00000000#32 reduces_S8x256_S8 (.inl rfl) rfl) shapeCasts_S8_S8x1

/-- Read at `(p, 0)`: the sum over the rows `r` of the sums over the columns `c` of the loaded quadrant of image `p`. -/
theorem colSum_apply (v : FVec Ideal S8x256x256 .f32) (p : Fin 8) (z : Fin 1) :
    colSum v (ix2 p z) = ∑ r : Fin 256, ∑ c : Fin 256, v (ix3 p r c) :=
  (col_of_vec _ _ p z).trans ((sum_last2 _ _ _ _ _ p).trans (Finset.sum_congr rfl fun r _ => sum_last3 _ _ _ _ _ p r))

/-- The stored value at `(p, q)`: the iterated sum of the `q`-th loaded quadrant of image `p`. -/
theorem pay_apply (v0 v3 v6 v9 : FVec Ideal S8x256x256 .f32) (p : Fin 8) (q : Fin 4) :
    k0_pay1 (F := Ideal) v0 v3 v6 v9 (ix2 p q) = ∑ r : Fin 256, ∑ c : Fin 256, (![v0, v3, v6, v9] q) (ix3 p r c) := by
  unfold k0_pay1
  exact (cols4 (a := 8) (fun k => colSum (![v0, v3, v6, v9] k)) concatenates_S8x1_S8x1_S8x1_S8x1_S8x4_d1 p q).trans
    (colSum_apply _ p 0)

theorem hz : (![0, 0] : Fin 2 → Nat) = fun _ => 0 := funext fun a => by fin_cases a <;> rfl

/-- The `q`-th load reads the block at the quadrant's first row and column, shifted by the position inside the quadrant. -/
theorem ld_quadrant (x0 : Vec Ideal S8x512x512 .f32) (p : Fin 8) (r c : Fin 256) (q : Fin 4) :
    (![View.ld x0 r0_0, View.ld x0 r0_1, View.ld x0 r0_2, View.ld x0 r0_3] q) (ix3 p r c)
      = x0 (ix3 p (shift (rowOff q) r) (shift (colOff q) c)) := by
  match q with
  | 0 => exact congrArg x0 (funext fun d => Fin.ext (by
      match d with
      | ⟨0, _⟩ => show 0 + 1 * p.val = p.val; omega
      | ⟨1, _⟩ => show 0 + 1 * r.val = 0 + r.val; omega
      | ⟨2, _⟩ => show 0 + 1 * c.val = 0 + c.val; omega))
  | 1 => exact congrArg x0 (funext fun d => Fin.ext (by
      match d with
      | ⟨0, _⟩ => show 0 + 1 * p.val = p.val; omega
      | ⟨1, _⟩ => show 256 + 1 * r.val = 256 + r.val; omega
      | ⟨2, _⟩ => show 0 + 1 * c.val = 0 + c.val; omega))
  | 2 => exact congrArg x0 (funext fun d => Fin.ext (by
      match d with
      | ⟨0, _⟩ => show 0 + 1 * p.val = p.val; omega
      | ⟨1, _⟩ => show 256 + 1 * r.val = 256 + r.val; omega
      | ⟨2, _⟩ => show 256 + 1 * c.val = 256 + c.val; omega))
  | 3 => exact congrArg x0 (funext fun d => Fin.ext (by
      match d with
      | ⟨0, _⟩ => show 0 + 1 * p.val = p.val; omega
      | ⟨1, _⟩ => show 0 + 1 * r.val = 0 + r.val; omega
      | ⟨2, _⟩ => show 256 + 1 * c.val = 256 + c.val; omega))

/-- The block a grid step writes, entry by entry, from the block it was given. -/
theorem block_apply (x0 : Vec Ideal S8x512x512 .f32) (p : Fin 8) (q : Fin 4) :
    out0_1 (F := Ideal) x0 (ix2 p q)
      = ∑ r : Fin 256, ∑ c : Fin 256, x0 (ix3 p (shift (rowOff q) r) (shift (colOff q) c)) := by
  unfold out0_1
  rw [View.canon_unit_zero hz]
  exact (pay_apply _ _ _ _ p q).trans
    (Finset.sum_congr rfl fun r _ => Finset.sum_congr rfl fun c _ => ld_quadrant x0 p r c q)

end Cert.KernelIdeal.Block

end
-- ==== Proof.Head.lean ====
/-
  What both programs do with the quadrant sums: one function `head` of the sums and the five parameter arrays.

  With `agg : [256, 4]` the quadrant sums, `v : [4, 4, 1]`, `g, b : [4, 4]`, `W : [10, 16]` and `β : [10]`:
  the weights are `w = g · (v / ‖v‖)`, the norm taken over the last (unit) axis of `v`; each sum is spread over the
  four output channels, `y (n, q, k) = agg (n, q) · w (q, k) + b (q, k)`; `y` is flattened to `[256, 16]` and multiplied
  by `Wᵀ`, and `β` is added to every row. The kernel's program applies these operations to the array its grid wrote, the
  reference to the array it computed on the host; the operations are the same, one by one, so the results agree as soon
  as the two arrays of quadrant sums do. This function is never opened.
-/
import proofs.«134007_j1443109012173_1_alg».proof.Proof.Gen.KernelIdeal
import Idealize.ShloMosaic.PureOps.Ideal

noncomputable section

namespace Cert.KernelIdeal.Head

open Idealize.ShloMosaic Cert.KernelIdeal Cert.KernelIdeal.Gen

/-- The weight-normalised affine map on the quadrant sums followed by the fully connected layer. -/
def head (agg : FVec Ideal S256x4 .f32) (v : FVec Ideal S4x4x1 .f32) (g b : FVec Ideal S4x4 .f32)
    (W : FVec Ideal S10x16 .f32) (β : FVec Ideal S10 .f32) : FVec Ideal S256x10 .f32 :=
  addf (Host.dotGeneral (F := Ideal) dot_S256x16_S16x10_S256x10_1_0_0_1_n_n none
      (shapeCast _ (addf
        (mulf (broadcastInDim S256x4x4 ![0, 1, 2] bcast_S256x4x1_S256x4x4_0_1_2 (broadcastInDim S256x4x1 ![0, 1] bcast_S256x4_S256x4x1_0_1 agg))
          (broadcastInDim S256x4x4 ![0, 1, 2] bcast_S1x4x4_S256x4x4_0_1_2 (broadcastInDim S1x4x4 ![1, 2] bcast_S4x4_S1x4x4_1_2
            (mulf g (Host.divf (F := Ideal) (shapeCast _ v shapeCasts_S4x4x1_S4x4)
              (Host.sqrt (F := Ideal) (Host.reduceAdd (F := Ideal) (mulf v v) (constant (F := Ideal) S_ .f32 0x00000000#32) reducesTo_S4x4x1_S4x4_d2 h_S_)))))))
        (broadcastInDim S256x4x4 ![0, 1, 2] bcast_S1x4x4_S256x4x4_0_1_2 (broadcastInDim S1x4x4 ![1, 2] bcast_S4x4_S1x4x4_1_2 b)))
        shapeCasts_S256x4x4_S256x16)
      (transpose S16x10 [1, 0] W transposes_S10x16_S16x10_1_0))
    (broadcastInDim S256x10 ![0, 1] bcast_S1x10_S256x10_0_1 (broadcastInDim S1x10 ![1] bcast_S10_S1x10_1 β))

end Cert.KernelIdeal.Head

end
-- ==== Proof.KernelArray.lean ====
/-
  From the blocks the grid steps write to the whole array of quadrant sums, and the kernel's run.

  Grid step `t` (of 32) is given images `8 t … 8 t + 7` of the input and writes rows `8 t … 8 t + 7` of the `[256, 4]`
  output array. What it writes is, entry by entry, the quadrant sums of those images, i.e. rows `8 t … 8 t + 7` of
  `agg x` for the whole input `x`. The 32 row blocks tile the output array, so after the last step the array is `agg x`.
  The operations after the grid then apply `head` to it.
-/
import proofs.«134007_j1443109012173_1_alg».proof.Proof.Gen.KernelIdeal.Frame
import proofs.«134007_j1443109012173_1_alg».proof.Proof.KernelBlock
import proofs.«134007_j1443109012173_1_alg».proof.Proof.Head
import Idealize.ShloMosaic.Lib.Pipeline.Value
import Idealize.ShloMosaic.Lib.StableHlo.Run

noncomputable section

namespace Cert.KernelIdeal.Array

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Block Cert.KernelIdeal.Head Cert.Quadrants

variable (m : (ℓ : Loc nD τ sig) → Buf (Elt Ideal) ℓ) (ρ : Dev nD → PrngReg)

/-- The index maps over the grid: step `t` takes block `t` along the batch axis of both arrays, block 0 along the others. -/
theorem idx_facts : ∀ t : Fin cfg0.N, win0_0.index t (0 : Fin 3) = t.val ∧ win0_0.index t (1 : Fin 3) = 0
    ∧ win0_0.index t (2 : Fin 3) = 0 ∧ win0_1.index t (0 : Fin 2) = t.val ∧ win0_1.index t (1 : Fin 2) = 0 :=
  (by decide +kernel : ∀ t : Fin grid0.N, _)

/-- Image `p` of the block step `t` is given is image `8 t + p` of the input. -/
theorem iblk_apply (c : Dev nD) (t : Fin cfg0.N) (p : Fin 8) (r k : Fin 512) (n : Fin 256) (hn : n.val = 8 * t.val + p.val) :
    (iblk m c 0 t : Vec Ideal S8x512x512 .f32) (ix3 p r k)
      = (m ((c : Thread nD τ).loc main_arg0) : S256x512x512.Idx → EReal) (ix3 n r k) := by
  obtain ⟨e0, e1, e2, -, -⟩ := idx_facts t
  unfold iblk
  rw [View.read_apply]
  show V m c main_arg0 _ = m (c.tc.loc main_arg0) _
  unfold V
  congr 1
  funext a
  apply Fin.ext
  match a with
  | ⟨0, _⟩ => show win0_0.index t 0 * 8 + 1 * p.val = n.val; rw [e0, hn]; omega
  | ⟨1, _⟩ => show win0_0.index t 1 * 512 + 1 * r.val = r.val; rw [e1]; omega
  | ⟨2, _⟩ => show win0_0.index t 2 * 512 + 1 * k.val = k.val; rw [e2]; omega

/-- Entry `(p, q)` of the block step `t` writes sits at row `8 t + p`, column `q` of the output array. -/
theorem emb_out (t : Fin cfg0.N) (p : Fin 8) (q : Fin 4) (n : Fin 256) (hn : n.val = 8 * t.val + p.val) :
    ((cfg0.win 1).blk t).view.emb (ix2 p q) = (ix2 n q : S256x4.Idx) := by
  obtain ⟨-, -, -, e3, e4⟩ := idx_facts t
  funext a
  apply Fin.ext
  match a with
  | ⟨0, _⟩ => show win0_1.index t 0 * 8 + 1 * p.val = n.val; rw [e3, hn]; omega
  | ⟨1, _⟩ => show win0_1.index t 1 * 4 + 1 * q.val = q.val; rw [e4]; omega

/-- What step `t` writes back is rows `8 t … 8 t + 7` of the quadrant sums of the whole input. -/
theorem flushed_eq (c : Dev nD) (t : Fin cfg0.N) :
    (dats m 0 c).flushed 1 t
      = ((cfg0.win 1).blk t).view.read (Elt Ideal) (agg (m ((c : Thread nD τ).loc main_arg0))) := by
  show (cfg0.win 1).cut (grid0.coords t) ((dats m 0 c).after 1 t) = _
  rw [after0_1]
  funext y
  obtain ⟨p, q, rfl⟩ : ∃ (p : Fin 8) (q : Fin 4), y = ix2 p q := ⟨y 0, y 1, eq_ix2 y⟩
  have hN : cfg0.N = 32 := N_0
  have hn : 8 * t.val + p.val < 256 := by have := t.isLt; have := p.isLt; omega
  show out0_1 (iblk m c 0 t) (ix2 p q)
    = agg (m ((c : Thread nD τ).loc main_arg0)) (((cfg0.win 1).blk t).view.emb (ix2 p q))
  rw [emb_out t p q ⟨8 * t.val + p.val, hn⟩ rfl, agg_apply]
  refine (block_apply (iblk m c 0 t) p q).trans ?_
  exact Finset.sum_congr rfl fun r _ => Finset.sum_congr rfl fun k _ =>
    iblk_apply m c t p (shift (rowOff q) r) (shift (colOff q) k) ⟨8 * t.val + p.val, hn⟩ rfl

/-- An index of the output array lies in step `t`'s block iff each coordinate lies in the block's range on its axis. -/
theorem mem_blk (t : Fin cfg0.N) (i : S256x4.Idx) :
    i ∈ ((cfg0.win 1).blk t).view.set ↔ ∀ a : Fin 2, win0_1.index t a * S8x4.size a ≤ (i a).val
      ∧ (i a).val < win0_1.index t a * S8x4.size a + S8x4.size a := by
  show i ∈ ((View.whole main_v0).slice (win0_1.rect t)).set ↔ _
  rw [View.set_slice_whole, Rect.mem_set_unit]
  exact Iff.rfl

/-- Row `n` of the output array is written by step `n / 8`: the 32 row blocks tile the array. -/
theorem cover (i : S256x4.Idx) : ∃ t : Fin cfg0.N, (cfg0.win 1).flush t = true ∧ i ∈ ((cfg0.win 1).blk t).view.set := by
  have hN : cfg0.N = 32 := N_0
  have h0 : (i 0).val < 256 := (i 0).isLt
  have h1 : (i 1).val < 4 := (i 1).isLt
  have ht : (i 0).val / 8 < cfg0.N := by omega
  refine ⟨⟨(i 0).val / 8, ht⟩, flush0_1 _, ?_⟩
  rw [mem_blk]
  obtain ⟨-, -, -, e3, e4⟩ := idx_facts ⟨(i 0).val / 8, ht⟩
  intro a
  match a with
  | ⟨0, _⟩ =>
    show win0_1.index ⟨(i 0).val / 8, ht⟩ 0 * 8 ≤ (i 0).val ∧ (i 0).val < win0_1.index ⟨(i 0).val / 8, ht⟩ 0 * 8 + 8
    rw [e3]; show (i 0).val / 8 * 8 ≤ (i 0).val ∧ (i 0).val < (i 0).val / 8 * 8 + 8; omega
  | ⟨1, _⟩ =>
    show win0_1.index ⟨(i 0).val / 8, ht⟩ 1 * 4 ≤ (i 1).val ∧ (i 1).val < win0_1.index ⟨(i 0).val / 8, ht⟩ 1 * 4 + 4
    rw [e4]; omega

/-- After the last step the output array holds the quadrant sums of the input. -/
theorem final (c : Dev nD) : (dats m 0 c).arrAt 1 cfg0.N = agg (m ((c : Thread nD τ).loc main_arg0)) :=
  (dats m 0 c).arrAt_eq_of_cover 1 (agg (m ((c : Thread nD τ).loc main_arg0))) (fun t _ => flushed_eq m c t) cover

set_option maxHeartbeats 2000000 in
/-- The operations after the grid, run from any buffer contents `W`, leave `head` of the contents of the grid's output
    array and of the five parameter arrays in the result buffer. -/
theorem tail_of (W : Valuation τ sig (Elt Ideal)) :
    StableHlo.after (List.flatten [hostOps1, hostOps1_1, hostOps1_2]) W (Proc.devRef .tc main_v18)
      = head (W (Proc.devRef .tc main_v0)) (W (Proc.devRef .tc main_arg1)) (W (Proc.devRef .tc main_arg2))
          (W (Proc.devRef .tc main_arg3)) (W (Proc.devRef .tc main_arg4)) (W (Proc.devRef .tc main_arg5)) := by
  simp only [hostOps1, hostOps1_1, hostOps1_2, List.flatten_cons, List.flatten_nil, List.append_nil, List.cons_append,
    List.nil_append]
  after_results_simp
  rfl

/-- The result buffer after the whole program: `head` of the quadrant sums of the input and of the parameters. The
    contents the later operations start from are the grid's arrays as the grid left them (the output array at `agg`, by
    `final`) and every other buffer as launched. -/
theorem tail_eq (c : Dev nD) :
    Pipeline.afterTail₀ cfgs (dats m) 0 (V0 m) [hostOps1, hostOps1_1, hostOps1_2] c main_v18
      = head (agg (m ((c : Thread nD τ).loc main_arg0))) (m ((c : Thread nD τ).loc main_arg1)) (m ((c : Thread nD τ).loc main_arg2))
          (m ((c : Thread nD τ).loc main_arg3)) (m ((c : Thread nD τ).loc main_arg4)) (m ((c : Thread nD τ).loc main_arg5)) := by
  unfold Pipeline.afterTail₀
  refine (tail_of _).trans ?_
  have h0 : Pipeline.withArrays (cfgs 0).spec c (V0 m c) (fun w => (dats m 0 c).arrAt w (cfgs 0).N) (Proc.devRef .tc main_v0)
      = agg (m ((c : Thread nD τ).loc main_arg0)) :=
    (Pipeline.withArrays_arr spec0 launch0.win.arr_inj c _ _ 1).trans (final m c)
  have h1 : Pipeline.withArrays (cfgs 0).spec c (V0 m c) (fun w => (dats m 0 c).arrAt w (cfgs 0).N) (Proc.devRef .tc main_arg1)
      = m ((c : Thread nD τ).loc main_arg1) :=
    Pipeline.withArrays_of_ne _ c (V0 m c) _ main_arg1 (by exact (by decide : ∀ w, Pipeline.arrRef spec0 w ≠ main_arg1))
  have h2 : Pipeline.withArrays (cfgs 0).spec c (V0 m c) (fun w => (dats m 0 c).arrAt w (cfgs 0).N) (Proc.devRef .tc main_arg2)
      = m ((c : Thread nD τ).loc main_arg2) :=
    Pipeline.withArrays_of_ne _ c (V0 m c) _ main_arg2 (by exact (by decide : ∀ w, Pipeline.arrRef spec0 w ≠ main_arg2))
  have h3 : Pipeline.withArrays (cfgs 0).spec c (V0 m c) (fun w => (dats m 0 c).arrAt w (cfgs 0).N) (Proc.devRef .tc main_arg3)
      = m ((c : Thread nD τ).loc main_arg3) :=
    Pipeline.withArrays_of_ne _ c (V0 m c) _ main_arg3 (by exact (by decide : ∀ w, Pipeline.arrRef spec0 w ≠ main_arg3))
  have h4 : Pipeline.withArrays (cfgs 0).spec c (V0 m c) (fun w => (dats m 0 c).arrAt w (cfgs 0).N) (Proc.devRef .tc main_arg4)
      = m ((c : Thread nD τ).loc main_arg4) :=
    Pipeline.withArrays_of_ne _ c (V0 m c) _ main_arg4 (by exact (by decide : ∀ w, Pipeline.arrRef spec0 w ≠ main_arg4))
  have h5 : Pipeline.withArrays (cfgs 0).spec c (V0 m c) (fun w => (dats m 0 c).arrAt w (cfgs 0).N) (Proc.devRef .tc main_arg5)
      = m ((c : Thread nD τ).loc main_arg5) :=
    Pipeline.withArrays_of_ne _ c (V0 m c) _ main_arg5 (by exact (by decide : ∀ w, Pipeline.arrRef spec0 w ≠ main_arg5))
  rw [h0, h1, h2, h3, h4, h5]

/-- The kernel's program, run: the result buffer ends at `head` of the quadrant sums, every argument array as launched. -/
theorem run : θ_run defs (onTc (τ := τ) (main (F := Ideal))) ⟨m, fun _ => 0, ρ⟩ fun r => ∀ c : Dev nD,
      r.2.mem ((c.tc : Thread nD τ).loc main_v18)
        = head (agg (m ((c : Thread nD τ).loc main_arg0))) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v18 (Pipeline.mem_restRefs_of main_v18 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Array

end
-- ==== Proof.ReferenceSums.lean ====
/-
  The reference computes the same quadrant sums, and then the same `head`.

  The reference slices the four quadrants out of the whole input, sums each slice over both of its trailing axes in one
  reduction, turns the four vectors `[256]` into columns `[256, 1]` and joins them side by side. The indices of a
  slice that reduce to image `n` are the pairs (row, column) of the quadrant, so each reduction is the iterated sum over
  rows and columns (`Cert.Quadrants.blockSum`), and the joined array is `Cert.Quadrants.agg` of the input. The remaining
  operations are those of `head`.
-/
import proofs.«134007_j1443109012173_1_alg».proof.Proof.Gen.ReferenceIdeal.Read
import proofs.«134007_j1443109012173_1_alg».proof.Proof.LibTrailingSums
import proofs.«134007_j1443109012173_1_alg».proof.Proof.QuadrantSpec
import proofs.«134007_j1443109012173_1_alg».proof.Proof.Head

noncomputable section

namespace Cert.ReferenceIdeal.RefValue

open Idealize.ShloMosaic Idealize.ShloMosaic.ValueIdx Idealize.ShloMosaic.TrailingSums
open Cert.ReferenceIdeal Cert.ReferenceIdeal.Gen Cert.ReferenceIdeal.Read Cert.Quadrants

/-- One reduction of a quadrant's slice, read at image `n`: the quadrant's iterated sum. `sl` is the slice, known entry by
    entry (`hsl`); the initial value is zero (`hz`). -/
theorem quadSum_apply (x0 : FVec Ideal S256x512x512 .f32) (sl : FVec Ideal S256x256x256 .f32) (r0 c0 : Fin 257)
    (hsl : ∀ (n r k : Fin 256), sl (ix3 n r k) = x0 (ix3 n (shift r0 r) (shift c0 k)))
    (z : FVec Ideal S_ .f32) (hz : z (Shape.Idx.first h_S_) = 0) (n : Fin 256) :
    Host.reduceAdd (F := Ideal) sl z reducesTo_S256x256x256_S256_d1_2 h_S_ (ix1 n) = blockSum x0 n r0 c0 := by
  show Ideal.hostReduceAdd reducesTo_S256x256x256_S256_d1_2 sl (z (Shape.Idx.first h_S_)) (ix1 n) = _
  refine (hostSum_trailing2 reducesTo_S256x256x256_S256_d1_2 sl _ n).trans ?_
  rw [hz, zero_add]
  exact Finset.sum_congr rfl fun r _ => Finset.sum_congr rfl fun k _ => hsl n r k

theorem cst_zero : (val_main_cst (F := Ideal)) (Shape.Idx.first h_S_) = 0 := Ideal.ofBits_zero_f32

/-- Each slice, entry by entry: the quadrant's first row and column added to the position inside it. -/
theorem slice0 (x0 : FVec Ideal S256x512x512 .f32) (n r k : Fin 256) :
    val_main_v0 (F := Ideal) x0 (ix3 n r k) = x0 (ix3 n (shift (rowOff 0) r) (shift (colOff 0) k)) := by
  rw [val_main_v0_apply]
  refine congrArg x0 (funext fun d => Fin.ext ?_)
  match d with
  | ⟨0, _⟩ => rfl
  | ⟨1, _⟩ => show r.val = 0 + r.val; omega
  | ⟨2, _⟩ => show k.val = 0 + k.val; omega

theorem slice1 (x0 : FVec Ideal S256x512x512 .f32) (n r k : Fin 256) :
    val_main_v2 (F := Ideal) x0 (ix3 n r k) = x0 (ix3 n (shift (rowOff 1) r) (shift (colOff 1) k)) := by
  rw [val_main_v2_apply]
  refine congrArg x0 (funext fun d => Fin.ext ?_)
  match d with
  | ⟨0, _⟩ => rfl
  | ⟨1, _⟩ => rfl
  | ⟨2, _⟩ => show k.val = 0 + k.val; omega

theorem slice2 (x0 : FVec Ideal S256x512x512 .f32) (n r k : Fin 256) :
    val_main_v4 (F := Ideal) x0 (ix3 n r k) = x0 (ix3 n (shift (rowOff 2) r) (shift (colOff 2) k)) := by
  rw [val_main_v4_apply]
  refine congrArg x0 (funext fun d => Fin.ext ?_)
  match d with
  | ⟨0, _⟩ => rfl
  | ⟨1, _⟩ => rfl
  | ⟨2, _⟩ => rfl

theorem slice3 (x0 : FVec Ideal S256x512x512 .f32) (n r k : Fin 256) :
    val_main_v6 (F := Ideal) x0 (ix3 n r k) = x0 (ix3 n (shift (rowOff 3) r) (shift (colOff 3) k)) := by
  rw [val_main_v6_apply]
  refine congrArg x0 (funext fun d => Fin.ext ?_)
  match d with
  | ⟨0, _⟩ => rfl
  | ⟨1, _⟩ => show r.val = 0 + r.val; omega
  | ⟨2, _⟩ => rfl

/-- The four reductions, each at image `n`. -/
theorem v1_apply (x0 : FVec Ideal S256x512x512 .f32) (n : Fin 256) :
    val_main_v1 (F := Ideal) x0 (ix1 n) = blockSum x0 n (rowOff 0) (colOff 0) :=
  quadSum_apply x0 (val_main_v0 (F := Ideal) x0) (rowOff 0) (colOff 0) (slice0 x0) (val_main_cst (F := Ideal)) cst_zero n

theorem v3_apply (x0 : FVec Ideal S256x512x512 .f32) (n : Fin 256) :
    val_main_v3 (F := Ideal) x0 (ix1 n) = blockSum x0 n (rowOff 1) (colOff 1) :=
  quadSum_apply x0 (val_main_v2 (F := Ideal) x0) (rowOff 1) (colOff 1) (slice1 x0) (val_main_cst_0 (F := Ideal)) cst_zero n

theorem v5_apply (x0 : FVec Ideal S256x512x512 .f32) (n : Fin 256) :
    val_main_v5 (F := Ideal) x0 (ix1 n) = blockSum x0 n (rowOff 2) (colOff 2) :=
  quadSum_apply x0 (val_main_v4 (F := Ideal) x0) (rowOff 2) (colOff 2) (slice2 x0) (val_main_cst_1 (F := Ideal)) cst_zero n

theorem v7_apply (x0 : FVec Ideal S256x512x512 .f32) (n : Fin 256) :
    val_main_v7 (F := Ideal) x0 (ix1 n) = blockSum x0 n (rowOff 3) (colOff 3) :=
  quadSum_apply x0 (val_main_v6 (F := Ideal) x0) (rowOff 3) (colOff 3) (slice3 x0) (val_main_cst_2 (F := Ideal)) cst_zero n

/-- The column of a vector reads the vector's entry. -/
theorem col_idx (n : Fin 256) (z : Fin 1) : idx_main_v8 (ix2 n z) = ix1 n :=
  funext fun a => match a with | ⟨0, _⟩ => rfl

/-- The array the reference joins from its four columns is the array of quadrant sums. -/
theorem agg_eq (x0 : FVec Ideal S256x512x512 .f32) : val_main_v12 (F := Ideal) x0 = agg x0 := by
  funext j
  obtain ⟨n, q, rfl⟩ : ∃ (n : Fin 256) (q : Fin 4), j = ix2 n q := ⟨j 0, j 1, eq_ix2 j⟩
  rw [agg_apply]
  unfold val_main_v12
  refine (cols4 (a := 256) ![val_main_v8 (F := Ideal) x0, val_main_v9 (F := Ideal) x0, val_main_v10 (F := Ideal) x0,
    val_main_v11 (F := Ideal) x0] concatenates_S256x1_S256x1_S256x1_S256x1_S256x4_d1 n q).trans ?_
  match q with
  | 0 => exact (val_main_v8_apply (F := Ideal) x0 (ix2 n 0)).trans ((congrArg (val_main_v1 (F := Ideal) x0) (col_idx n 0)).trans (v1_apply x0 n))
  | 1 => exact (val_main_v9_apply (F := Ideal) x0 (ix2 n 0)).trans ((congrArg (val_main_v3 (F := Ideal) x0) (col_idx n 0)).trans (v3_apply x0 n))
  | 2 => exact (val_main_v10_apply (F := Ideal) x0 (ix2 n 0)).trans ((congrArg (val_main_v5 (F := Ideal) x0) (col_idx n 0)).trans (v5_apply x0 n))
  | 3 => exact (val_main_v11_apply (F := Ideal) x0 (ix2 n 0)).trans ((congrArg (val_main_v7 (F := Ideal) x0) (col_idx n 0)).trans (v7_apply x0 n))

/-- The reference's result is `head` of the quadrant sums and the parameters. -/
theorem result_eq (x0 : FVec Ideal S256x512x512 .f32) (x1 : FVec Ideal S4x4x1 .f32) (x2 x3 : FVec Ideal S4x4 .f32)
    (x4 : FVec Ideal S10x16 .f32) (x5 : FVec Ideal S10 .f32) :
    val_main_v30 (F := Ideal) x0 x1 x2 x3 x4 x5 = Cert.KernelIdeal.Head.head (agg x0) x1 x2 x3 x4 x5 := by
  rw [← agg_eq x0]
  rfl

end Cert.ReferenceIdeal.RefValue

end
-- ==== Proof.lean ====
/-
  The kernel's program and its reference compute the same `[256, 10]` array at the exact (extended-real) values.

  Both programs first reduce the input `x : [256, 512, 512]` to its quadrant sums `agg x : [256, 4]` (four 256 × 256
  quadrants per image, in the order top-left, bottom-left, bottom-right, top-right; `Cert.Quadrants.agg`), and then apply
  the same chain of operations `head` to `agg x` and the five parameter arrays (`Cert.KernelIdeal.Head.head`).

  * The kernel runs a grid of 32 steps; step `t` is given images `8 t … 8 t + 7`, sums each quadrant over its columns and
    then over its rows, and writes rows `8 t … 8 t + 7` of the output array; the row blocks tile the array, which therefore
    ends at `agg x` (`Cert.KernelIdeal.Array.final`), and the operations after the grid leave `head (agg x) …` in the
    result (`Cert.KernelIdeal.Array.run`).
  * The reference slices each quadrant out of the whole input and sums the slice over both trailing axes at once; the
    indices reducing to image `n` are the quadrant's (row, column) pairs, so this is the same iterated sum
    (`Cert.ReferenceIdeal.RefValue.agg_eq`), and its remaining operations are `head` (`result_eq`).

  The only law used is that a finite sum of extended reals does not depend on how it is grouped (addition there is
  commutative and associative), so the finiteness precondition is never opened. The three frames are the generated runs;
  the idealization rewrote nothing, so `preserves` is `True`.
-/
import proofs.«134007_j1443109012173_1_alg».proof.Defs
import proofs.«134007_j1443109012173_1_alg».proof.Proof.Gen.Kernel
import proofs.«134007_j1443109012173_1_alg».proof.Proof.Gen.Kernel.Frame
import proofs.«134007_j1443109012173_1_alg».proof.Proof.Gen.KernelIdeal
import proofs.«134007_j1443109012173_1_alg».proof.Proof.Gen.KernelIdeal.Frame
import proofs.«134007_j1443109012173_1_alg».proof.Proof.Gen.ReferenceIdeal
import proofs.«134007_j1443109012173_1_alg».proof.Proof.Gen.ReferenceIdeal.Run
import proofs.«134007_j1443109012173_1_alg».proof.Proof.Gen.ReferenceIdeal.Read
import proofs.«134007_j1443109012173_1_alg».proof.Proof.Gen.Pre_finite_inputs
import proofs.«134007_j1443109012173_1_alg».proof.Proof.KernelArray
import proofs.«134007_j1443109012173_1_alg».proof.Proof.ReferenceSums
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_reference : Cert.frame_ReferenceIdeal := fun m ρ _ =>
  (θ_run Cert.ReferenceIdeal.defs _ _).mono (fun _ h c => (h c).2) (Cert.ReferenceIdeal.Value.run (F := Ideal) m ρ)

/-- From memories that agree on the six arguments both programs end with `head (agg x) v g b W β` in their result. -/
theorem algebraic : Cert.algebraic_KernelIdeal_ReferenceIdeal := by
  intro m ρ m' ρ' _ hagree
  refine ⟨_, Cert.KernelIdeal.Array.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v30_eq (F := Ideal)
    (m' ((c.tc : Thread Cert.ReferenceIdeal.nD Cert.ReferenceIdeal.τ).loc Cert.ReferenceIdeal.main_arg0))
    (m' ((c.tc : Thread Cert.ReferenceIdeal.nD Cert.ReferenceIdeal.τ).loc Cert.ReferenceIdeal.main_arg1))
    (m' ((c.tc : Thread Cert.ReferenceIdeal.nD Cert.ReferenceIdeal.τ).loc Cert.ReferenceIdeal.main_arg2))
    (m' ((c.tc : Thread Cert.ReferenceIdeal.nD Cert.ReferenceIdeal.τ).loc Cert.ReferenceIdeal.main_arg3))
    (m' ((c.tc : Thread Cert.ReferenceIdeal.nD Cert.ReferenceIdeal.τ).loc Cert.ReferenceIdeal.main_arg4))
    (m' ((c.tc : Thread Cert.ReferenceIdeal.nD Cert.ReferenceIdeal.τ).loc Cert.ReferenceIdeal.main_arg5))).trans ?_
  rw [Cert.ReferenceIdeal.RefValue.result_eq,
    (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
